-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x112x112x256 : Shape := ⟨4, ![64, 112, 112, 256]⟩
abbrev S_ : Shape := ⟨0, ![]⟩

class Facts : Prop where
  bcast_S_S64x112x112x256 : S_.BroadcastsInDim S64x112x112x256 (![] : Fin 0 → Fin S64x112x112x256.rank)
  reducesTo_S64x112x112x256_S_d0_1_2_3 : S64x112x112x256.ReducesTo [0, 1, 2, 3] S_
  h_S_ : 0 < S_.numel

variable [Facts]

def fn {F : FTy → Type} [FloatOps F] (main_arg0 : FVec F S64x112x112x256 .f32) : IVec S_ 1 :=
  let main_v0 : FVec F S64x112x112x256 .f32 := Host.absf main_arg0
  let main_cst : FVec F S_ .f32 := constant S_ .f32 0x7F800000#32
  let main_v1 : FVec F S64x112x112x256 .f32 := broadcastInDim S64x112x112x256 ![] bcast_S_S64x112x112x256 main_cst
  let main_v2 : IVec S64x112x112x256 1 := cmpf .olt main_v0 main_v1
  let main_c : IVec S_ 1 := constantI S_ 1 1#1
  let main_v3 : IVec S_ 1 := (fun x v => Host.reduce IntOp.andi x v reducesTo_S64x112x112x256_S_d0_1_2_3 h_S_) main_v2 main_c
  main_v3
-- ==== Kernel.lean ====
abbrev S64x112x112x256 : Shape := ⟨4, ![64, 112, 112, 256]⟩
abbrev S64x256 : Shape := ⟨2, ![64, 256]⟩
abbrev S8x16x112x256 : Shape := ⟨4, ![8, 16, 112, 256]⟩
abbrev S8x256 : Shape := ⟨2, ![8, 256]⟩
abbrev S8x16x256 : Shape := ⟨3, ![8, 16, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x112x112x256, .f32⟩
  | .hbm, ⟨1, _⟩ => ⟨S64x256, .f32⟩
  | .local _ .vmem, ⟨0, _⟩ => ⟨S8x16x112x256, .f32⟩
  | .local _ .vmem, ⟨1, _⟩ => ⟨S8x16x112x256, .f32⟩
  | .local _ .vmem, ⟨2, _⟩ => ⟨S8x256, .f32⟩
  | .local _ .vmem, ⟨3, _⟩ => ⟨S8x256, .f32⟩
  | _, _ => ⟨S64x112x112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_4 : BitVec 32 := 0#32
  let v5 : BitVec 1 := Scalar.cmpi .ne v4 c0_i32_4
  v5

def k0_cond2 (i : grid0.Coords) : BitVec 1 :=
  let arg1 : BitVec 32 := BitVec.ofNat 32 (i 1).val
  let c0_i32_5 : BitVec 32 := 0#32
  let v6 : BitVec 1 := Scalar.cmpi .sgt arg1 c0_i32_5
  let v7 : BitVec 32 := Scalar.extui v6
  let c0_i32_6 : BitVec 32 := 0#32
  let v8 : BitVec 1 := Scalar.cmpi .ne v7 c0_i32_6
  v8

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x16x112x256_S8x16x112x256_0_0_0_0 : ∀ a, (![0, 0, 0, 0] : Fin 4 → Nat) a + S8x16x112x256.size a ≤ S8x16x112x256.size a
  h_S8x16x112x256 : 0 < S8x16x112x256.numel
  reduces_S8x16x112x256_S8x16x256 : S8x16x112x256.Reduces [2] S8x16x256
  reduces_S8x16x256_S8x256 : S8x16x256.Reduces [1] S8x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x112x256.size a ≤ S64x112x112x256.size a
  hwx0_0 : ∀ i : grid0.Coords, EltTy.bits .f32 = 32 ∨ (Rect.block (s := S64x112x112x256) S8x16x112x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)

variable [Facts₀]

abbrev win0_0 : Pipeline.Window sig grid0 :=
  Pipeline.Window.ofSpec (Memref.whole main_arg0) S8x16x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S64x112x112x256 : Shape := ⟨4, ![64, 112, 112, 256]⟩
abbrev S_ : Shape := ⟨0, ![]⟩
abbrev S64x256 : Shape := ⟨2, ![64, 256]⟩

abbrev nBuf : Space → Nat
  | .hbm => 3
  | .vmem => 0
  | .smem => 0
  | _ => 0

abbrev bufTy : (tb : Table) → Fin (tcTables nBuf tb) → BufTy
  | .hbm, ⟨0, _⟩ => ⟨S64x112x112x256, .f32⟩
  | .hbm, ⟨1, _⟩ => ⟨S_, .f32⟩
  | .hbm, ⟨2, _⟩ => ⟨S64x256, .f32⟩
  | _, _ => ⟨S64x112x112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S64x112x112x256_S64x256_d1_2 : S64x112x112x256.ReducesTo [1, 2] S64x256
  h_S_ : 0 < S_.numel

variable [Facts₀]

class Facts : Prop extends Facts₀ where

variable [Facts]
-- ==== Proof.K.Cases.lean ====
/-
  The pooling kernel's body, case by case. The grid is 8 batch tiles by 7 tiles of H, the H axis innermost:
  point t is batch tile t / 7 at H tile t % 7. The body takes the maximum of its input block over W and then
  over the block's 16 rows of H, and either stores it (H tile 0: the first branch) or stores its maximum with
  what the output block already holds (a later H tile: the second branch). Exactly one branch runs at every point.
-/
import proofs.«144895_j35656818491725_2_alg».proof.Proof.Gen.Kernel.Frame
import proofs.«144895_j35656818491725_2_alg».proof.Proof.Gen.Kernel.Skeleton
import Idealize.ShloMosaic.Lib.Pipeline.Value

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs where -/

/-- The first branch (`j == 0`) runs exactly at the points whose H tile is 0. -/
theorem first_iff : ∀ t : Fin cfg0.N, k0_cond1 (grid0.coords t) = 1#1 ↔ t.val % 7 = 0 :=
  (by decide +kernel : ∀ t : Fin grid0.N, k0_cond1 (grid0.coords t) = 1#1 ↔ t.val % 7 = 0)

/-- The second branch (`j > 0`) runs exactly at the other points. -/
theorem later_iff : ∀ t : Fin cfg0.N, k0_cond2 (grid0.coords t) = 1#1 ↔ ¬ t.val % 7 = 0 :=
  (by decide +kernel : ∀ t : Fin grid0.N, k0_cond2 (grid0.coords t) = 1#1 ↔ ¬ t.val % 7 = 0)

/-- So the output block is stored at every point: an H tile is 0 or positive. -/
theorem out_live : ∀ t : Fin cfg0.N, cfg0.idle 1 (grid0.coords t) = false :=
  (by decide +kernel : ∀ t : Fin grid0.N, idle0 1 (grid0.coords t) = false)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## The body on whole staging buffers -/

/-- At H tile 0 the body, handed the input buffer at `x` and the output buffer at anything, returns the input
    buffer as it was and the output buffer at the block maximum `k0_pay1 x`: its one store covers the buffer. -/
theorem run_first (c : Dev nD) (i : grid0.Coords) (a2 : Memref sig .tc .vmem S8x16x112x256 .f32) (h2 : a2.IsWhole)
    (a3 : Memref sig .tc .vmem S8x256 .f32) (h3 : a3.IsWhole) (hc1 : k0_cond1 i = 1#1) (hc2 : ¬ k0_cond2 i = 1#1)
    (x : Vec F S8x16x112x256 .f32) (E : Set ℕ) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (k0_pay1 x)) -∗ K ⟨⟩))
      ⊢ wp frame (wpE (defs₀ (F := F)) Variants.none c none) E (cc0__pool_kernel i a2 h2 a3 h3) K := by
  simp only [cc0__pool_kernel_eq_skeleton]; unfold cc0__pool_kernel_skel
  unfold owns
  iintro ⟨⟨%f0, %hf0, H0⟩, ⟨%d1, %f1, -, H1⟩, Hk⟩
  obtain rfl := h2.eq_unread hf0
  sl_exec (disch := first | exact hc1 | exact hc2)
  sl_step
  iapply Hk
  isplitl [H0]
  · iexists _; isplitr; · ipureintro; exact h2.read_unread _
    iexact H0
  iexists _; isplitr
  swap; · iexact H1
  ipureintro
  rw [View.read_writes_eq_canon _ _ _ (fun y => ⟨_, List.mem_singleton_self _, View.mem_set_unit_zero zeros2 inb_S8x256_S8x256_0_0 y⟩),
    View.canon_unit_zero zeros2]
  simp only [View.readAt_eq_ld, h2.read_unread, View.ld_unit_zero (S := S8x16x112x256) zeros4]

/-- At a later H tile the body, handed the input buffer at `x` and the output buffer at the running maximum `acc`,
    returns the input buffer as it was and the output buffer at `k0_pay2 x acc`, the entrywise maximum of `acc` and
    the block maximum of `x`: it loads the output buffer before its one covering store. -/
theorem run_later (c : Dev nD) (i : grid0.Coords) (a2 : Memref sig .tc .vmem S8x16x112x256 .f32) (h2 : a2.IsWhole)
    (a3 : Memref sig .tc .vmem S8x256 .f32) (h3 : a3.IsWhole) (hc1 : ¬ k0_cond1 i = 1#1) (hc2 : k0_cond2 i = 1#1)
    (x : Vec F S8x16x112x256 .f32) (acc : Vec F S8x256 .f32) (E : Set ℕ) (K : PUnit → sProp 𝕄) :
    iprop(owns (c : Thread nD τ) a2 fullShare x ∗ owns (c : Thread nD τ) a3 fullShare acc
        ∗ (iprop(owns (c : Thread nD τ) a2 fullShare x ∗ owns (c : Thread nD τ) a3 fullShare (k0_pay2 x acc)) -∗ K ⟨⟩))
      ⊢ wp frame (wpE (defs₀ (F := F)) Variants.none c none) E (cc0__pool_kernel i a2 h2 a3 h3) K := by
  simp only [cc0__pool_kernel_eq_skeleton]; unfold cc0__pool_kernel_skel
  unfold owns
  iintro ⟨⟨%f0, %hf0, H0⟩, ⟨%f1, %hf1, H1⟩, Hk⟩
  obtain rfl := h2.eq_unread hf0; obtain rfl := h3.eq_unread hf1
  sl_exec (disch := first | exact hc1 | exact hc2)
  sl_step
  iapply Hk
  isplitl [H0]
  · iexists _; isplitr; · ipureintro; exact h2.read_unread _
    iexact H0
  iexists _; isplitr
  swap; · iexact H1
  ipureintro
  rw [View.read_writes_eq_canon _ _ _ (fun y => ⟨_, List.mem_singleton_self _, View.mem_set_unit_zero zeros2 inb_S8x256_S8x256_0_0 y⟩),
    View.canon_unit_zero zeros2]
  simp only [View.readAt_eq_ld, h2.read_unread, h3.read_unread, View.ld_unit_zero (S := S8x16x112x256) zeros4,
    View.ld_unit_zero (S := S8x256) zeros2]

end Cert.Kernel.Pool

end
-- ==== Proof.K.Data.lean ====
/-
  The proof data of the pooling kernel's one pipeline, and its frame. After the body at point t the input window's
  buffer holds its block, untouched, and the output window's buffer holds the RUNNING MAXIMUM of the batch tile:
  the block maximum at H tile 0, and at a later H tile the entrywise maximum of the block maximum with what the
  point before left. The output block is written back after the last H tile only (points = 6 mod 7), so between
  two points of one batch tile the buffer keeps what the body left.
-/
import proofs.«144895_j35656818491725_2_alg».proof.Proof.K.Cases
import Idealize.ShloMosaic.Lib.Pipeline.Frame
import Idealize.ShloMosaic.Lib.Pipeline.Kit

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running maximum -/

/-- What the output window's staging buffer holds after the body at point `n`. -/
def running (c : Dev nD) : (n : ℕ) → n < cfg0.N → Vec F S8x256 .f32
  | 0, hn => k0_pay1 (iblk m c 0 ⟨0, hn⟩)
  | n + 1, hn =>
    if (n + 1) % 7 = 0 then k0_pay1 (iblk m c 0 ⟨n + 1, hn⟩)
    else k0_pay2 (iblk m c 0 ⟨n + 1, hn⟩) (running c n (Nat.lt_of_succ_lt hn))

/-- At H tile 0 it is the block maximum. -/
theorem running_first (c : Dev nD) (t : Fin cfg0.N) (h0 : t.val % 7 = 0) :
    running m c t.val t.isLt = k0_pay1 (iblk m c 0 t) := by
  obtain ⟨n, hn⟩ := t
  cases n with
  | zero => exact rfl
  | succ n => exact (if_pos h0).trans rfl

/-- At a later H tile it is the maximum of the block maximum with the running maximum of the point before. -/
theorem running_later (c : Dev nD) (t : Fin cfg0.N) (h0 : ¬ t.val % 7 = 0) :
    running m c t.val t.isLt
      = k0_pay2 (iblk m c 0 t) (running m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body the input's buffer at its block and the output's at the
    running maximum; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => running m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = running m c t.val t.isLt := by
  dsimp only [dats]

/-! ## What the body finds -/

/-- The output window is stored into at every grid coordinate: an H tile is 0 or positive. -/
theorem out_live_all : ∀ i : grid0.Coords, cfg0.idle 1 i = false := fun i => by
  show (!(k0_cond1 i == 1#1) && !(k0_cond2 i == 1#1)) = false
  unfold k0_cond1 k0_cond2
  dsimp only
  generalize i 1 = j
  revert j
  decide +kernel

/-- The same, in the configuration's own spelling of the idle table. -/
theorem out_live_tab : ∀ i : grid0.Coords, idle0 1 i = false := out_live_all

/-- The input's buffer holds its block at every point (it is fetched at every point). -/
theorem before_in (c : Dev nD) (t : Fin cfg0.N) (d) : (dats m 0 c).before 0 t d = iblk m c 0 t :=
  before0_0_of m (dats m 0 c) (A_eq m c 0) (after_in m c) t d

/-- At a later H tile the output's buffer holds the running maximum of the point before: that point did not write
    the block back, and the window is stored into everywhere and is not clipped. -/
theorem before_out_later (c : Dev nD) (t : Fin cfg0.N) (h0 : ¬ t.val % 7 = 0) (d) :
    (dats m 0 c).before 1 t d = running m c (t.val - 1) (Nat.lt_of_le_of_lt (Nat.sub_le _ _) t.isLt) := by
  have hN : t.val < 56 := lt_of_lt_of_eq t.isLt (show cfg0.N = 56 from N_0)
  rw [Dat.before_out_kept _ 1 rfl t (by omega)
    (Bool.eq_false_iff.mpr fun h => by have := (flush0_1 _).mp h; dsimp only at this; omega)
    out_live_all (fun _ _ => rfl)]
  dsimp only [dats]

/-! ## The body obligation -/

set_option maxHeartbeats 1600000 in
/-- The body at any point. The input's buffer holds its block. At H tile 0 the first branch alone runs, on an output
    buffer holding anything; at a later H tile the second alone, on an output buffer holding the running maximum of the
    point before. Either way the output buffer is left at the running maximum of this point; the invariant passes
    through unread and the core owes nothing throughout. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t))) := by
  unfold bodyAt0
  simp only [before_in]
  rw [show (dats m 0 c).Φ t.succ = (dats m 0 c).Φ t.castSucc from rfl,
    show (dats m 0 c).owesAt () t.succ = (dats m 0 c).owesAt () t.castSucc from rfl, after_in, after_out]
  by_cases h0 : t.val % 7 = 0
  · rw [running_first m c t h0]
    iintro ⟨HΦ, Ho, ⟨%d0, H0⟩, ⟨%d1, H1⟩⟩
    iapply (run_first c (grid0.coords t) (st0_0 t) (hstage0_0 ((cfg0.slots t 0).cast nbuf0_0)) (st0_1 t) (hstage0_1 ((cfg0.slots t 1).cast nbuf0_1)) ((first_iff t).mpr h0) (fun h => (later_iff t).mp h h0)
      (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [running_later m c t h0]
    simp only [before_out_later m c t h0]
    iintro ⟨HΦ, Ho, ⟨%d0, H0⟩, ⟨%d1, H1⟩⟩
    iapply (run_later c (grid0.coords t) (st0_0 t) (hstage0_0 ((cfg0.slots t 0).cast nbuf0_0)) (st0_1 t) (hstage0_1 ((cfg0.slots t 1).cast nbuf0_1)) (fun h => h0 ((first_iff t).mp h)) ((later_iff t).mpr h0)
      (iblk m c 0 t) (running m c (t.val - 1) (Nat.lt_of_le_of_lt (Nat.sub_le _ _) t.isLt)) Set.univ _)
    isplitl [H0]; · iexact H0
    isplitl [H1]; · iexact H1
    iintro ⟨H0, H1⟩
    isplitl [HΦ]; · iexact HΦ
    isplitl [Ho]; · iexact Ho
    isplitl [H0]; · iexact H0
    iexact H1

set_option maxHeartbeats 800000 in
/-- The library's body obligation, at every point: the windows one by one, the output window stored into everywhere. -/
theorem body_obligation (c : Dev nD) :
    BodyObligation (dats (F := F) m 0 c) (defs₀ (F := F)) Variants.none () Set.univ := fun t => by
  rw [bigSep_W0, bigSep_W0]
  rw [show cfg0.idle 1 (cfg0.grid.coords t) = false from out_live_all _]
  exact sound_body m c t

/-! ## The run and the frame -/

set_option backward.isDefEq.respectTransparency.types false in
/-- Every weakly fair execution of @main terminates, without a fault, with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Pool

end
-- ==== Proof.KI.Cases.lean ====
/-
  The pooling kernel's body, case by case. The grid is 8 batch tiles by 7 tiles of H, the H axis innermost:
  point t is batch tile t / 7 at H tile t % 7. The body takes the maximum of its input block over W and then
  over the block's 16 rows of H, and either stores it (H tile 0: the first branch) or stores its maximum with
  what the output block already holds (a later H tile: the second branch). Exactly one branch runs at every point.
-/
import proofs.«144895_j35656818491725_2_alg».proof.Proof.Gen.KernelIdeal.Frame
import proofs.«144895_j35656818491725_2_alg».proof.Proof.Gen.KernelIdeal.Skeleton
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branch runs where -/

/-- The first branch (`j == 0`) runs exactly at the points whose H tile is 0. -/
theorem first_iff : ∀ t : Fin cfg0.N, k0_cond1 (grid0.coords t) = 1#1 ↔ t.val % 7 = 0 :=
  (by decide +kernel : ∀ t : Fin grid0.N, k0_cond1 (grid0.coords t) = 1#1 ↔ t.val % 7 = 0)

/-- The second branch (`j > 0`) runs exactly at the other points. -/
theorem later_iff : ∀ t : Fin cfg0.N, k0_cond2 (grid0.coords t) = 1#1 ↔ ¬ t.val % 7 = 0 :=
  (by decide +kernel : ∀ t : Fin grid0.N, k0_cond2 (grid0.coords t) = 1#1 ↔ ¬ t.val % 7 = 0)

/-- So the output block is stored at every point: an H tile is 0 or positive. -/
theorem out_live : ∀ t : Fin cfg0.N, cfg0.idle 1 (grid0.coords t) = false :=
  (by decide +kernel : ∀ t : Fin grid0.N, idle0 1 (grid0.coords t) = false)

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## The body on whole staging buffers -/

/-- At H tile 0 the body, handed the input buffer at `x` and the output buffer at anything, returns the input
    buffer as it was and the output buffer at the block maximum `k0_pay1 x`: its one store covers the buffer. -/
theorem run_first (c : Dev nD) (i : grid0.Coords) (a2 : Memref sig .tc .vmem S8x16x112x256 .f32) (h2 : a2.IsWhole)
    (a3 : Memref sig .tc .vmem S8x256 .f32) (h3 : a3.IsWhole) (hc1 : k0_cond1 i = 1#1) (hc2 : ¬ k0_cond2 i = 1#1)
    (x : Vec F S8x16x112x256 .f32) (E : Set ℕ) (K : PUnit → sProp 𝕄) :
    iprop(owns (c : Thread nD τ) a2 fullShare x ∗ (∃ d, owns (c : Thread nD τ) a3 fullShare d)
        ∗ (iprop(owns (c : Thread nD τ) a2 fullShare x ∗ owns (c : Thread nD τ) a3 fullShare (k0_pay1 x)) -∗ K ⟨⟩))
      ⊢ wp frame (wpE (defs₀ (F := F)) Variants.none c none) E (cc0__pool_kernel i a2 h2 a3 h3) K := by
  simp only [cc0__pool_kernel_eq_skeleton]; unfold cc0__pool_kernel_skel
  unfold owns
  iintro ⟨⟨%f0, %hf0, H0⟩, ⟨%d1, %f1, -, H1⟩, Hk⟩
  obtain rfl := h2.eq_unread hf0
  sl_exec (disch := first | exact hc1 | exact hc2)
  sl_step
  iapply Hk
  isplitl [H0]
  · iexists _; isplitr; · ipureintro; exact h2.read_unread _
    iexact H0
  iexists _; isplitr
  swap; · iexact H1
  ipureintro
  rw [View.read_writes_eq_canon _ _ _ (fun y => ⟨_, List.mem_singleton_self _, View.mem_set_unit_zero zeros2 inb_S8x256_S8x256_0_0 y⟩),
    View.canon_unit_zero zeros2]
  simp only [View.readAt_eq_ld, h2.read_unread, View.ld_unit_zero (S := S8x16x112x256) zeros4]

/-- At a later H tile the body, handed the input buffer at `x` and the output buffer at the running maximum `acc`,
    returns the input buffer as it was and the output buffer at `k0_pay2 x acc`, the entrywise maximum of `acc` and
    the block maximum of `x`: it loads the output buffer before its one covering store. -/
theorem run_later (c : Dev nD) (i : grid0.Coords) (a2 : Memref sig .tc .vmem S8x16x112x256 .f32) (h2 : a2.IsWhole)
    (a3 : Memref sig .tc .vmem S8x256 .f32) (h3 : a3.IsWhole) (hc1 : ¬ k0_cond1 i = 1#1) (hc2 : k0_cond2 i = 1#1)
    (x : Vec F S8x16x112x256 .f32) (acc : Vec F S8x256 .f32) (E : Set ℕ) (K : PUnit → sProp 𝕄) :
    iprop(owns (c : Thread nD τ) a2 fullShare x ∗ owns (c : Thread nD τ) a3 fullShare acc
        ∗ (iprop(owns (c : Thread nD τ) a2 fullShare x ∗ owns (c : Thread nD τ) a3 fullShare (k0_pay2 x acc)) -∗ K ⟨⟩))
      ⊢ wp frame (wpE (defs₀ (F := F)) Variants.none c none) E (cc0__pool_kernel i a2 h2 a3 h3) K := by
  simp only [cc0__pool_kernel_eq_skeleton]; unfold cc0__pool_kernel_skel
  unfold owns
  iintro ⟨⟨%f0, %hf0, H0⟩, ⟨%f1, %hf1, H1⟩, Hk⟩
  obtain rfl := h2.eq_unread hf0; obtain rfl := h3.eq_unread hf1
  sl_exec (disch := first | exact hc1 | exact hc2)
  sl_step
  iapply Hk
  isplitl [H0]
  · iexists _; isplitr; · ipureintro; exact h2.read_unread _
    iexact H0
  iexists _; isplitr
  swap; · iexact H1
  ipureintro
  rw [View.read_writes_eq_canon _ _ _ (fun y => ⟨_, List.mem_singleton_self _, View.mem_set_unit_zero zeros2 inb_S8x256_S8x256_0_0 y⟩),
    View.canon_unit_zero zeros2]
  simp only [View.readAt_eq_ld, h2.read_unread, h3.read_unread, View.ld_unit_zero (S := S8x16x112x256) zeros4,
    View.ld_unit_zero (S := S8x256) zeros2]

end Cert.KernelIdeal.Pool

end
-- ==== Proof.KI.Data.lean ====
/-
  The proof data of the pooling kernel's one pipeline, and its frame. After the body at point t the input window's
  buffer holds its block, untouched, and the output window's buffer holds the RUNNING MAXIMUM of the batch tile:
  the block maximum at H tile 0, and at a later H tile the entrywise maximum of the block maximum with what the
  point before left. The output block is written back after the last H tile only (points = 6 mod 7), so between
  two points of one batch tile the buffer keeps what the body left.
-/
import proofs.«144895_j35656818491725_2_alg».proof.Proof.KI.Cases
import Idealize.ShloMosaic.Lib.Pipeline.Frame
import Idealize.ShloMosaic.Lib.Pipeline.Kit

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running maximum -/

/-- What the output window's staging buffer holds after the body at point `n`. -/
def running (c : Dev nD) : (n : ℕ) → n < cfg0.N → Vec F S8x256 .f32
  | 0, hn => k0_pay1 (iblk m c 0 ⟨0, hn⟩)
  | n + 1, hn =>
    if (n + 1) % 7 = 0 then k0_pay1 (iblk m c 0 ⟨n + 1, hn⟩)
    else k0_pay2 (iblk m c 0 ⟨n + 1, hn⟩) (running c n (Nat.lt_of_succ_lt hn))

/-- At H tile 0 it is the block maximum. -/
theorem running_first (c : Dev nD) (t : Fin cfg0.N) (h0 : t.val % 7 = 0) :
    running m c t.val t.isLt = k0_pay1 (iblk m c 0 t) := by
  obtain ⟨n, hn⟩ := t
  cases n with
  | zero => exact rfl
  | succ n => exact (if_pos h0).trans rfl

/-- At a later H tile it is the maximum of the block maximum with the running maximum of the point before. -/
theorem running_later (c : Dev nD) (t : Fin cfg0.N) (h0 : ¬ t.val % 7 = 0) :
    running m c t.val t.isLt
      = k0_pay2 (iblk m c 0 t) (running m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body the input's buffer at its block and the output's at the
    running maximum; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => running m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = running m c t.val t.isLt := by
  dsimp only [dats]

/-! ## What the body finds -/

/-- The output window is stored into at every grid coordinate: an H tile is 0 or positive. -/
theorem out_live_all : ∀ i : grid0.Coords, cfg0.idle 1 i = false := fun i => by
  show (!(k0_cond1 i == 1#1) && !(k0_cond2 i == 1#1)) = false
  unfold k0_cond1 k0_cond2
  dsimp only
  generalize i 1 = j
  revert j
  decide +kernel

/-- The same, in the configuration's own spelling of the idle table. -/
theorem out_live_tab : ∀ i : grid0.Coords, idle0 1 i = false := out_live_all

/-- The input's buffer holds its block at every point (it is fetched at every point). -/
theorem before_in (c : Dev nD) (t : Fin cfg0.N) (d) : (dats m 0 c).before 0 t d = iblk m c 0 t :=
  before0_0_of m (dats m 0 c) (A_eq m c 0) (after_in m c) t d

/-- At a later H tile the output's buffer holds the running maximum of the point before: that point did not write
    the block back, and the window is stored into everywhere and is not clipped. -/
theorem before_out_later (c : Dev nD) (t : Fin cfg0.N) (h0 : ¬ t.val % 7 = 0) (d) :
    (dats m 0 c).before 1 t d = running m c (t.val - 1) (Nat.lt_of_le_of_lt (Nat.sub_le _ _) t.isLt) := by
  have hN : t.val < 56 := lt_of_lt_of_eq t.isLt (show cfg0.N = 56 from N_0)
  rw [Dat.before_out_kept _ 1 rfl t (by omega)
    (Bool.eq_false_iff.mpr fun h => by have := (flush0_1 _).mp h; dsimp only at this; omega)
    out_live_all (fun _ _ => rfl)]
  dsimp only [dats]

/-! ## The body obligation -/

set_option maxHeartbeats 1600000 in
/-- The body at any point. The input's buffer holds its block. At H tile 0 the first branch alone runs, on an output
    buffer holding anything; at a later H tile the second alone, on an output buffer holding the running maximum of the
    point before. Either way the output buffer is left at the running maximum of this point; the invariant passes
    through unread and the core owes nothing throughout. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t))) := by
  unfold bodyAt0
  simp only [before_in]
  rw [show (dats m 0 c).Φ t.succ = (dats m 0 c).Φ t.castSucc from rfl,
    show (dats m 0 c).owesAt () t.succ = (dats m 0 c).owesAt () t.castSucc from rfl, after_in, after_out]
  by_cases h0 : t.val % 7 = 0
  · rw [running_first m c t h0]
    iintro ⟨HΦ, Ho, ⟨%d0, H0⟩, ⟨%d1, H1⟩⟩
    iapply (run_first c (grid0.coords t) (st0_0 t) (hstage0_0 ((cfg0.slots t 0).cast nbuf0_0)) (st0_1 t) (hstage0_1 ((cfg0.slots t 1).cast nbuf0_1)) ((first_iff t).mpr h0) (fun h => (later_iff t).mp h h0)
      (iblk m c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [running_later m c t h0]
    simp only [before_out_later m c t h0]
    iintro ⟨HΦ, Ho, ⟨%d0, H0⟩, ⟨%d1, H1⟩⟩
    iapply (run_later c (grid0.coords t) (st0_0 t) (hstage0_0 ((cfg0.slots t 0).cast nbuf0_0)) (st0_1 t) (hstage0_1 ((cfg0.slots t 1).cast nbuf0_1)) (fun h => h0 ((first_iff t).mp h)) ((later_iff t).mpr h0)
      (iblk m c 0 t) (running m c (t.val - 1) (Nat.lt_of_le_of_lt (Nat.sub_le _ _) t.isLt)) Set.univ _)
    isplitl [H0]; · iexact H0
    isplitl [H1]; · iexact H1
    iintro ⟨H0, H1⟩
    isplitl [HΦ]; · iexact HΦ
    isplitl [Ho]; · iexact Ho
    isplitl [H0]; · iexact H0
    iexact H1

set_option maxHeartbeats 800000 in
/-- The library's body obligation, at every point: the windows one by one, the output window stored into everywhere. -/
theorem body_obligation (c : Dev nD) :
    BodyObligation (dats (F := F) m 0 c) (defs₀ (F := F)) Variants.none () Set.univ := fun t => by
  rw [bigSep_W0, bigSep_W0]
  rw [show cfg0.idle 1 (cfg0.grid.coords t) = false from out_live_all _]
  exact sound_body m c t

/-! ## The run and the frame -/

set_option backward.isDefEq.respectTransparency.types false in
/-- Every weakly fair execution of @main terminates, without a fault, with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Pool

end
-- ==== Proof.PoolSpec.lean ====
/-
  Global spatial max pooling over the extended reals, and the law that joins a tiled running maximum to it.

  For an array X of shape [64, 112, 112, 256] the pooled value at (a, c) is the supremum of X (a, h, w, c) over all
  rows h and columns w. The H axis is cut into 7 tiles of 16 rows; the maximum over one tile is the supremum over its
  16 rows and all columns; the running maximum through tile n is the supremum of the tile maxima of tiles 0 .. n.
  It starts at tile 0's maximum, steps by a binary maximum with the next tile's maximum, and through the last
  tile is the pooled value, because every row lies in exactly one tile. Suprema on the extended reals need no finiteness:
  the only laws used are that a supremum is the least upper bound and that max is the binary supremum.
-/
import Idealize.ShloMosaic.PureOps.Ideal
import Idealize.ShloMosaic.PureOps.Ideal.Laws
import Idealize.ShloMosaic.Lib.ValueIdx

noncomputable section

namespace PoolSpec

open Idealize.ShloMosaic Idealize.ShloMosaic.ValueIdx

/-! ## The pooled value, tile maxima and running maxima -/

abbrev SIn : Shape := ⟨4, ![64, 112, 112, 256]⟩
abbrev SOut : Shape := ⟨2, ![64, 256]⟩

/-- Row `r` of H tile `k`: row `16 k + r` of the array. -/
def tileRow (k : Fin 7) (r : Fin 16) : Fin 112 := ⟨16 * k.val + r.val, by have := k.isLt; have := r.isLt; omega⟩

/-- The pooled value: the supremum over all rows and columns. -/
def pooled (X : SIn.Idx → EReal) : SOut.Idx → EReal :=
  fun j => ⨆ (h : Fin 112) (w : Fin 112), X (ix4 (j 0) h w (j 1))

/-- The maximum over H tile `k`: the supremum over its 16 rows and all columns. -/
def tileMax (X : SIn.Idx → EReal) (a : Fin 64) (k : Fin 7) (c : Fin 256) : EReal :=
  ⨆ (r : Fin 16) (w : Fin 112), X (ix4 a (tileRow k r) w c)

/-- The running maximum through H tile `n`: the supremum of the tile maxima of the tiles up to `n`. -/
def upTo (X : SIn.Idx → EReal) (a : Fin 64) (n : ℕ) (c : Fin 256) : EReal :=
  ⨆ (k : Fin 7) (_ : k.val ≤ n), tileMax X a k c

/-- Through tile 0 it is tile 0's maximum. -/
theorem upTo_zero (X : SIn.Idx → EReal) (a : Fin 64) (c : Fin 256) :
    upTo X a 0 c = tileMax X a ⟨0, by omega⟩ c := by
  apply le_antisymm
  · refine iSup₂_le fun k hk => ?_
    have : k = ⟨0, by omega⟩ := Fin.ext (by simpa using hk)
    rw [this]
  · exact le_iSup₂_of_le (⟨0, by omega⟩ : Fin 7) (Nat.le_refl 0) le_rfl

/-- One more tile: the binary maximum with that tile's maximum. -/
theorem upTo_succ (X : SIn.Idx → EReal) (a : Fin 64) (n : ℕ) (hn : n + 1 < 7) (c : Fin 256) :
    max (upTo X a n c) (tileMax X a ⟨n + 1, hn⟩ c) = upTo X a (n + 1) c := by
  apply le_antisymm
  · refine max_le (iSup₂_le fun k hk => le_iSup₂_of_le k (Nat.le_succ_of_le hk) le_rfl) ?_
    exact le_iSup₂_of_le (⟨n + 1, hn⟩ : Fin 7) (Nat.le_refl _) le_rfl
  · refine iSup₂_le fun k hk => ?_
    rcases Nat.lt_or_ge k.val (n + 1) with h | h
    · exact le_max_of_le_left (le_iSup₂_of_le k (Nat.lt_succ_iff.mp h) le_rfl)
    · have : k = ⟨n + 1, hn⟩ := Fin.ext (Nat.le_antisymm hk h)
      rw [this]; exact le_max_right _ _

/-- Through the last tile it is the pooled value: every row `h` is row `h % 16` of tile `h / 16`. -/
theorem upTo_last (X : SIn.Idx → EReal) (a : Fin 64) (c : Fin 256) :
    upTo X a 6 c = pooled X (ix2 a c) := by
  apply le_antisymm
  · refine iSup₂_le fun k _ => iSup₂_le fun r w => ?_
    exact le_iSup₂_of_le (tileRow k r) w le_rfl
  · refine iSup₂_le fun h w => ?_
    have hh : h.val < 112 := h.isLt
    have e : tileRow ⟨h.val / 16, by omega⟩ ⟨h.val % 16, Nat.mod_lt _ (by omega)⟩ = h :=
      Fin.ext (by show 16 * (h.val / 16) + h.val % 16 = h.val; omega)
    refine le_iSup₂_of_le (⟨h.val / 16, by omega⟩ : Fin 7) (by show h.val / 16 ≤ 6; omega) ?_
    refine le_iSup₂_of_le (⟨h.val % 16, Nat.mod_lt _ (by omega)⟩ : Fin 16) w ?_
    rw [e]

end PoolSpec

end
-- ==== Proof.LibMaxSup.lean ====
/-
  Maxima from minus infinity at the ideal values are suprema.

  At the ideal values a float is an extended real, `maximumf` is `max`, and the f32 pattern 0xFF800000 is minus infinity,
  the bottom element. A fold of `max` from the bottom over a finite set is the supremum over the set, so
  - a `vector.multi_reduction <maximumf>` over one axis with the accumulator 0xFF800000, read at a result index, is the
    supremum over that axis's coordinates (`multiReduction_maximumf_negInf_single`), and
  - a host `stablehlo.reduce` with a maximum body from a rank-0 constant 0xFF800000, over any list of axes, read at a
    result index, is the supremum over the operand indices that drop to it (`hostReduce_maximumf_negInf`).
  Suprema need no finiteness hypothesis and no order of evaluation.
-/
import Idealize.ShloMosaic.PureOps.Ideal
import Idealize.ShloMosaic.PureOps.Ideal.Laws
import Idealize.ShloMosaic.PureOps.Reduce
import Mathlib.Data.Finset.Fold

noncomputable section

namespace MaxSup

open Idealize.ShloMosaic

/-- The f32 pattern of minus infinity denotes the bottom of the extended reals. -/
theorem neg_inf_f32 : Ideal.ofBits .f32 0xFF800000#32 = (⊥ : EReal) := by
  simp [Ideal.ofBits, Ideal.ieee]

/-- The same, spelt with the float operations' own `ofBits` read at the ideal values. -/
theorem neg_inf_f32' : (FloatOps.ofBits .f32 0xFF800000#32 : Ideal .f32) = (⊥ : EReal) := neg_inf_f32

/-- The fold of max from the bottom over a finite set is the supremum over the set. -/
theorem fold_max_bot_eq {ι : Type} (s : Finset ι) (f : ι → EReal) :
    s.fold max ⊥ f = ⨆ i, ⨆ _ : i ∈ s, f i := by
  apply le_antisymm
  · exact (Finset.fold_max_le _).mpr ⟨bot_le, fun i hi => le_iSup₂_of_le i hi le_rfl⟩
  · exact iSup₂_le fun i hi => (Finset.le_fold_max _).mpr (Or.inr ⟨i, hi, le_rfl⟩)

/-- Over a whole finite type it is the supremum over the type. -/
theorem fold_max_bot_univ {ι : Type} [Fintype ι] (f : ι → EReal) :
    (Finset.univ : Finset ι).fold max ⊥ f = ⨆ i, f i := by
  rw [fold_max_bot_eq]
  exact iSup_congr fun i => iSup_pos (Finset.mem_univ i)

/-- A `vector.multi_reduction <maximumf>` over ONE axis from minus infinity, read at the ideal values at a result index
    `j`: the supremum, over that axis's coordinates `k`, of the source at `j` with `k` inserted on the reduced axis. The
    accumulator's proof is typed as a printed program carries it. -/
theorem multiReduction_maximumf_negInf_single {s t : Shape} {a : Fin s.rank} (src : FVec Ideal s .f32)
    (h : s.Reduces [a] t) (hφ : FKind.Formats .f32)
    (hacc : (0xFF800000#32 : BitVec 32) = FKind.maximumf.neutral .f32 hφ) (j : t.Idx) :
    multiReduction (F := Ideal) .maximumf [a] t src 0xFF800000#32 h hφ hacc j
      = ⨆ k : Fin (s.size a), src (h.lift j k) := by
  refine (Ideal.multiReduction_maximumf_single src _ h hφ hacc j).trans ?_
  rw [neg_inf_f32', fold_max_bot_univ]
  rfl

/-- A host one-operand reduce with a maximum body from a rank-0 minus infinity, over any axes, read at the ideal values
    at a result index `j`: the supremum of the operand over the indices that drop to `j`. -/
theorem hostReduce_maximumf_negInf {s t : Shape} {axes : List (Fin s.rank)} (x : s.Idx → EReal)
    (h : s.ReducesTo axes t) (hu : 0 < (⟨0, ![]⟩ : Shape).numel) (j : t.Idx) :
    Host.reduce (FloatOps.maximumf (F := Ideal) (φ := .f32)) x (constant (F := Ideal) ⟨0, ![]⟩ .f32 0xFF800000#32) h hu j
      = ⨆ i, ⨆ _ : h.drop i = j, x i := by
  rw [Host.reduce_eq_fold]
  show (Finset.univ.filter fun i => h.drop i = j).fold max (Ideal.ofBits .f32 0xFF800000#32) x = _
  rw [neg_inf_f32, fold_max_bot_eq]
  exact iSup_congr fun i => iSup_congr_Prop (by simp) (fun _ => rfl)

end MaxSup

end
-- ==== Proof.KI.Value.lean ====
/-
  What the pooling kernel's result array holds at the ideal values: the pooled value of the argument array.

  At a point of batch tile `i` and H tile `k` the input block is rows 8 i .. 8 i + 7, rows 16 k .. 16 k + 15 of H, all of W
  and C. The block maximum at (b, c) — a maximum over W then over the 16 rows — is the supremum over those rows and all
  columns: the maximum over H tile `k` of array row 8 i + b. The running maximum after that point is the supremum of the
  tile maxima of tiles 0 .. k (by induction on the point: it starts at tile 0's maximum and steps by a binary maximum).
  The block is written back after H tile 6, when the running maximum is the supremum over every row: the pooled value.
  The written blocks tile the result array.
-/
import proofs.«144895_j35656818491725_2_alg».proof.Proof.KI.Data
import proofs.«144895_j35656818491725_2_alg».proof.Proof.PoolSpec
import proofs.«144895_j35656818491725_2_alg».proof.Proof.LibMaxSup
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen Cert.KernelIdeal.Pool
open Idealize.ShloMosaic Idealize.ShloMosaic.TcCoe Idealize.SL.Sem Idealize.ShloMosaic.ValueIdx PoolSpec MaxSup
open Idealize.ShloMosaic.Pipeline (Dat)

/-! ## The block maximum at an entry -/

/-- The maximum over W at (b, r, c) is the supremum over the columns. -/
theorem overW (x : FVec Ideal S8x16x112x256 .f32) (h : S8x16x112x256.Reduces [2] S8x16x256) (hφ : FKind.Formats .f32)
    (hacc : (0xFF800000#32 : BitVec 32) = FKind.maximumf.neutral .f32 hφ) (b : Fin 8) (r : Fin 16) (c : Fin 256) :
    multiReduction (F := Ideal) .maximumf [2] S8x16x256 x 0xFF800000#32 h hφ hacc (ix3 b r c)
      = ⨆ w : Fin 112, x (ix4 b r w c) := by
  refine (multiReduction_maximumf_negInf_single x h hφ hacc (ix3 b r c)).trans ?_
  refine iSup_congr fun w => ?_
  refine congrArg x (funext fun a => Fin.ext ?_)
  match a with
  | ⟨0, _⟩ => rfl
  | ⟨1, _⟩ => rfl
  | ⟨2, _⟩ => rfl
  | ⟨3, _⟩ => rfl

/-- The maximum over the 16 rows at (b, c) is the supremum over the rows. -/
theorem overRows (y : FVec Ideal S8x16x256 .f32) (h : S8x16x256.Reduces [1] S8x256) (hφ : FKind.Formats .f32)
    (hacc : (0xFF800000#32 : BitVec 32) = FKind.maximumf.neutral .f32 hφ) (b : Fin 8) (c : Fin 256) :
    multiReduction (F := Ideal) .maximumf [1] S8x256 y 0xFF800000#32 h hφ hacc (ix2 b c)
      = ⨆ r : Fin 16, y (ix3 b r c) := by
  refine (multiReduction_maximumf_negInf_single y h hφ hacc (ix2 b c)).trans ?_
  refine iSup_congr fun r => ?_
  refine congrArg y (funext fun a => Fin.ext ?_)
  match a with
  | ⟨0, _⟩ => rfl
  | ⟨1, _⟩ => rfl
  | ⟨2, _⟩ => rfl

/-- So the block maximum at (b, c) is the supremum over the block's rows and columns. -/
theorem blockMax_at (x : FVec Ideal S8x16x112x256 .f32) (b : Fin 8) (c : Fin 256) :
    k0_pay1 (F := Ideal) x (ix2 b c) = ⨆ (r : Fin 16) (w : Fin 112), x (ix4 b r w c) := by
  unfold k0_pay1
  refine (overRows _ _ _ _ b c).trans ?_
  exact iSup_congr fun r => overW x _ _ _ b r c

/-- The later branch's store at (b, c): the maximum of the running value there and the block maximum there. -/
theorem stepMax_at (x : FVec Ideal S8x16x112x256 .f32) (acc : FVec Ideal S8x256 .f32) (b : Fin 8) (c : Fin 256) :
    k0_pay2 (F := Ideal) x acc (ix2 b c) = max (acc (ix2 b c)) (k0_pay1 (F := Ideal) x (ix2 b c)) := by
  unfold k0_pay2
  rw [shapeCast_self]
  rfl

/-! ## The blocks, read off the argument array -/

variable (m : (ℓ : Loc nD τ sig) → Buf (Elt Ideal) ℓ) (ρ : Dev nD → PrngReg)

/-- The printed index maps over the grid: point `t` is batch tile `t / 7` at H tile `t % 7`. -/
theorem idx_facts : ∀ t : Fin cfg0.N, win0_0.index t (0 : Fin 4) = t.val / 7 ∧ win0_0.index t (1 : Fin 4) = t.val % 7
    ∧ win0_0.index t (2 : Fin 4) = 0 ∧ win0_0.index t (3 : Fin 4) = 0
    ∧ win0_1.index t (0 : Fin 2) = t.val / 7 ∧ win0_1.index t (1 : Fin 2) = 0 :=
  (by decide +kernel : ∀ t : Fin grid0.N, win0_0.index t (0 : Fin 4) = t.val / 7 ∧ win0_0.index t (1 : Fin 4) = t.val % 7
    ∧ win0_0.index t (2 : Fin 4) = 0 ∧ win0_0.index t (3 : Fin 4) = 0
    ∧ win0_1.index t (0 : Fin 2) = t.val / 7 ∧ win0_1.index t (1 : Fin 2) = 0)

/-- The argument array as the region finds it. -/
abbrev arg (c : Dev nD) : SIn.Idx → EReal := m ((c : Thread nD τ).loc main_arg0)

/-- The input block at point `t` read at `y` is the argument array at row `8 (t / 7) + y₀`, H row `16 (t % 7) + y₁`,
    column `y₂`, channel `y₃`. -/
theorem block_at (c : Dev nD) (t : Fin cfg0.N) (y : S8x16x112x256.Idx) (i : S64x112x112x256.Idx)
    (h0 : (i 0).val = 8 * (t.val / 7) + (y 0).val) (h1 : (i 1).val = 16 * (t.val % 7) + (y 1).val)
    (h2 : (i 2).val = (y 2).val) (h3 : (i 3).val = (y 3).val) :
    iblk m c 0 t y = arg m c i := by
  obtain ⟨e0, e1, e2, e3, -, -⟩ := idx_facts t
  unfold iblk
  rw [View.read_apply]
  show V m c main_arg0 (((cfg0.win 0).blk t).view.emb y) = m ((c : Thread nD τ).loc main_arg0) i
  unfold V
  congr 1
  funext a
  apply Fin.ext
  match a with
  | ⟨0, _⟩ => show win0_0.index t 0 * 8 + 1 * (y 0).val = (i 0).val; omega
  | ⟨1, _⟩ => show win0_0.index t 1 * 16 + 1 * (y 1).val = (i 1).val; omega
  | ⟨2, _⟩ => show win0_0.index t 2 * 112 + 1 * (y 2).val = (i 2).val; omega
  | ⟨3, _⟩ => show win0_0.index t 3 * 256 + 1 * (y 3).val = (i 3).val; omega

/-- The array row of block row `b` at point `n`, and the point's H tile. -/
def rowOf (n : ℕ) (hn : n < cfg0.N) (b : Fin 8) : Fin 64 :=
  ⟨8 * (n / 7) + b.val, by have : n < 56 := lt_of_lt_of_eq hn N_0; have := b.isLt; omega⟩
def tileOf (n : ℕ) : Fin 7 := ⟨n % 7, Nat.mod_lt _ (by omega)⟩

/-- The block maximum at point `t`, at (b, c), is the maximum over the point's H tile of array row `8 (t / 7) + b`. -/
theorem tile_at (c : Dev nD) (t : Fin cfg0.N) (b : Fin 8) (cc : Fin 256) :
    k0_pay1 (F := Ideal) (iblk m c 0 t) (ix2 b cc) = tileMax (arg m c) (rowOf t.val t.isLt b) (tileOf t.val) cc := by
  refine (blockMax_at (iblk m c 0 t) b cc).trans ?_
  unfold tileMax
  refine iSup_congr fun r => iSup_congr fun w => ?_
  exact block_at m c t (ix4 b r w cc) (ix4 (rowOf t.val t.isLt b) (tileRow (tileOf t.val) r) w cc) rfl rfl rfl rfl

/-! ## The running maximum is the supremum of the tile maxima so far -/

theorem running_eq (c : Dev nD) : ∀ (n : ℕ) (hn : n < cfg0.N) (b : Fin 8) (cc : Fin 256),
    running m c n hn (ix2 b cc) = upTo (arg m c) (rowOf n hn b) (n % 7) cc
  | 0, hn, b, cc => by
    refine (tile_at m c ⟨0, hn⟩ b cc).trans ?_
    exact (upTo_zero _ _ _).symm
  | n + 1, hn, b, cc => by
    have hN : n + 1 < 56 := lt_of_lt_of_eq hn N_0
    by_cases h0 : (n + 1) % 7 = 0
    · rw [running_first m c ⟨n + 1, hn⟩ h0]
      refine (tile_at m c ⟨n + 1, hn⟩ b cc).trans ?_
      have e : tileOf (n + 1) = ⟨0, by omega⟩ := Fin.ext h0
      show tileMax _ _ (tileOf (n + 1)) cc = upTo _ _ ((n + 1) % 7) cc
      rw [e, h0]
      exact (upTo_zero _ _ _).symm
    · rw [running_later m c ⟨n + 1, hn⟩ h0]
      refine (stepMax_at _ _ b cc).trans ?_
      show max (running m c n (Nat.lt_of_succ_lt hn) (ix2 b cc)) (k0_pay1 (F := Ideal) (iblk m c 0 ⟨n + 1, hn⟩) (ix2 b cc)) = _
      rw [running_eq c n (Nat.lt_of_succ_lt hn) b cc, tile_at m c ⟨n + 1, hn⟩ b cc]
      have hr : rowOf (n + 1) hn b = rowOf n (Nat.lt_of_succ_lt hn) b :=
        Fin.ext (by show 8 * ((n + 1) / 7) + b.val = 8 * (n / 7) + b.val; omega)
      have hk : (n + 1) % 7 = n % 7 + 1 := by omega
      have ht : tileOf (n + 1) = ⟨n % 7 + 1, by omega⟩ := Fin.ext hk
      show max _ (tileMax _ (rowOf (n + 1) hn b) (tileOf (n + 1)) cc) = upTo _ (rowOf (n + 1) hn b) ((n + 1) % 7) cc
      rw [hr, ht, hk]
      exact upTo_succ _ _ (n % 7) (by omega) cc

/-! ## From the written blocks to the result array -/

/-- What a point after the last H tile writes back is its block of the pooled value of the argument array. -/
theorem flushed_eq (c : Dev nD) (t : Fin cfg0.N) (hf : (cfg0.win 1).flush t = true) :
    (dats m 0 c).flushed 1 t = ((cfg0.win 1).blk t).view.read (Elt Ideal) (pooled (arg m c)) := by
  have h6 : t.val % 7 = 6 := (flush0_1 t).mp hf
  obtain ⟨-, -, -, -, e4, e5⟩ := idx_facts t
  show (cfg0.win 1).cut (grid0.coords t) ((dats m 0 c).after 1 t) = _
  rw [after_out]
  have key : ∀ (b : Fin 8) (cc : Fin 256),
      running m c t.val t.isLt (ix2 b cc) = pooled (arg m c) (((cfg0.win 1).blk t).view.emb (ix2 b cc)) := by
    intro b cc
    rw [running_eq m c t.val t.isLt b cc, h6, upTo_last]
    refine congrArg (pooled (arg m c)) (funext fun a => Fin.ext ?_)
    match a with
    | ⟨0, _⟩ => show 8 * (t.val / 7) + b.val = win0_1.index t 0 * 8 + 1 * b.val; omega
    | ⟨1, _⟩ => show cc.val = win0_1.index t 1 * 256 + 1 * cc.val; omega
  funext y
  show running m c t.val t.isLt y = pooled (arg m c) (((cfg0.win 1).blk t).view.emb y)
  have hy : (y : S8x256.Idx) = ix2 (y 0) (y 1) := eq_ix2 y
  rw [hy]
  exact key _ _

/-- An index of the result array is in point `t`'s block iff each coordinate is in the block's range on its axis. -/
theorem mem_block (t : Fin cfg0.N) (i : S64x256.Idx) :
    i ∈ ((cfg0.win 1).blk t).view.set
      ↔ ∀ a : Fin 2, win0_1.index t a * S8x256.size a ≤ (i a).val ∧ (i a).val < win0_1.index t a * S8x256.size a + S8x256.size a := by
  show i ∈ ((View.whole main_v0).slice (win0_1.rect t)).set ↔ _
  rw [View.set_slice_whole, Rect.mem_set_unit]
  exact Iff.rfl

/-- Every index of the result array is in a written-back block: row `a` is in batch tile `a / 8`, whose block is
    written back after its last H tile, at point `7 (a / 8) + 6`. -/
theorem covered (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hN : cfg0.N = 56 := N_0
  have ht : 7 * ((i 0).val / 8) + 6 < cfg0.N := by rw [hN]; omega
  obtain ⟨-, -, -, -, e4, e5⟩ := idx_facts ⟨7 * ((i 0).val / 8) + 6, ht⟩
  refine ⟨⟨7 * ((i 0).val / 8) + 6, ht⟩, (flush0_1 _).mpr (by show (7 * ((i 0).val / 8) + 6) % 7 = 6; omega), ?_⟩
  rw [mem_block]
  have e4' : win0_1.index ⟨7 * ((i 0).val / 8) + 6, ht⟩ 0 = (7 * ((i 0).val / 8) + 6) / 7 := e4
  intro a
  match a with
  | ⟨0, _⟩ =>
    show win0_1.index ⟨7 * ((i 0).val / 8) + 6, ht⟩ 0 * 8 ≤ (i 0).val ∧ (i 0).val < win0_1.index ⟨7 * ((i 0).val / 8) + 6, ht⟩ 0 * 8 + 8
    omega
  | ⟨1, _⟩ =>
    show win0_1.index ⟨7 * ((i 0).val / 8) + 6, ht⟩ 1 * 256 ≤ (i 1).val ∧ (i 1).val < win0_1.index ⟨7 * ((i 0).val / 8) + 6, ht⟩ 1 * 256 + 256
    omega

/-- So the result array ends holding the pooled value of the argument array. -/
theorem final (c : Dev nD) : (dats m 0 c).arrAt 1 cfg0.N = pooled (arg m c) :=
  (dats m 0 c).arrAt_eq_of_cover 1 (pooled (arg m c)) (flushed_eq m c) covered

/-- The run, read: the result array at the pooled value, the argument array unchanged. -/
theorem run : θ_run defs (onTc (τ := τ) (main (F := Ideal))) ⟨m, fun _ => 0, ρ⟩ fun r => ∀ c : Dev nD,
      r.2.mem ((c : Thread nD τ).loc main_v0) = pooled (arg m c)
      ∧ r.2.mem ((c : Thread nD τ).loc main_arg0) = m ((c : Thread nD τ).loc main_arg0) :=
  (θ_run defs _ _).mono
    (fun _ h c => ⟨((h c).1 1).trans (final m c), ((h c).1 0).trans ((dats m 0 c).arrAt_in 0 rfl _)⟩)
    (run_main m ρ)

end Cert.KernelIdeal.PoolValue

end
-- ==== Proof.RefValue.lean ====
/-
  The reference computes the pooled value. Its one operation is a reduce with a maximum body over axes 1 and 2 from
  minus infinity: at (a, c) the supremum over the array indices whose first coordinate is a and whose last is c, and
  those are all (a, h, w, c).
-/
import proofs.«144895_j35656818491725_2_alg».proof.Proof.Gen.ReferenceIdeal.Read
import proofs.«144895_j35656818491725_2_alg».proof.Proof.PoolSpec
import proofs.«144895_j35656818491725_2_alg».proof.Proof.LibMaxSup
import Idealize.ShloMosaic.PureOps.Ideal.Laws
import Idealize.ShloMosaic.Lib.ValueIdx

noncomputable section

namespace Cert.ReferenceIdeal.PoolRef

open Cert.ReferenceIdeal Cert.ReferenceIdeal.Gen Idealize.ShloMosaic Idealize.ShloMosaic.ValueIdx PoolSpec MaxSup

/-- An index of the array drops to `j` exactly when its first coordinate is `j`'s first and its last is `j`'s second. -/
theorem drop_iff (h : S64x112x112x256.ReducesTo [1, 2] S64x256) (i : S64x112x112x256.Idx) (j : S64x256.Idx) :
    h.drop i = j ↔ (i 0).val = (j 0).val ∧ (i 3).val = (j 1).val := by
  constructor
  · rintro rfl
    exact ⟨(h.drop_apply_val_of_eq i 0 0).symm, (h.drop_apply_val_of_eq i 1 3).symm⟩
  · rintro ⟨e0, e1⟩
    funext b
    apply Fin.ext
    match b with
    | ⟨0, _⟩ => exact (h.drop_apply_val_of_eq i 0 0).trans e0
    | ⟨1, _⟩ => exact (h.drop_apply_val_of_eq i 1 3).trans e1

/-- The reference's result is the pooled value of its argument. -/
theorem ref_eq_pooled (x : SIn.Idx → EReal) :
    Read.val_main_v0 (F := Ideal) x = pooled x := by
  funext j
  unfold Read.val_main_v0
  refine (hostReduce_maximumf_negInf x _ _ j).trans ?_
  apply le_antisymm
  · refine iSup₂_le fun i hi => ?_
    obtain ⟨e0, e1⟩ := (drop_iff _ i j).mp hi
    have hi4 : i = ix4 (j 0) (i 1) (i 2) (j 1) := by
      funext a
      apply Fin.ext
      match a with
      | ⟨0, _⟩ => exact e0
      | ⟨1, _⟩ => rfl
      | ⟨2, _⟩ => rfl
      | ⟨3, _⟩ => exact e1
    rw [hi4]
    exact le_iSup₂_of_le (i 1) (i 2) le_rfl
  · refine iSup₂_le fun h w => ?_
    exact le_iSup₂_of_le (ix4 (j 0) h w (j 1)) ((drop_iff _ _ j).mpr ⟨rfl, rfl⟩) le_rfl

end Cert.ReferenceIdeal.PoolRef

end
-- ==== Proof.lean ====
/-
  Global spatial max pooling, tiled over batch and H with a running maximum, against one reduce over (H, W).

  The kernel's grid is 8 batch tiles by 7 tiles of H. At each point the body takes the maximum of its input block over W
  and over the block's 16 rows, stores it at H tile 0 and otherwise stores its maximum with what the output block holds;
  the output block is written back after the last H tile. The reference reduces the whole array with a maximum over H
  and W from minus infinity. At the ideal values both are, at (a, c), the supremum of the argument at (a, h, w, c) over
  all h and w: a supremum of suprema over the seven H tiles is the supremum over all rows, and a fold of max from minus
  infinity is a supremum. No finiteness is needed: only that a supremum is a least upper bound.

  The three frames: the kernel's two programs run their body once per case of the two branches (exactly one runs at every
  point), with the running maximum as the output window's contents point by point; the reference's frame is its run.
  The ideal pass rewrote nothing, so the preservation claim is trivial.
-/
import proofs.«144895_j35656818491725_2_alg».proof.Defs
import proofs.«144895_j35656818491725_2_alg».proof.Proof.Gen.Kernel
import proofs.«144895_j35656818491725_2_alg».proof.Proof.Gen.KernelIdeal
import proofs.«144895_j35656818491725_2_alg».proof.Proof.Gen.ReferenceIdeal
import proofs.«144895_j35656818491725_2_alg».proof.Proof.Gen.Pre_finite_inputs
import proofs.«144895_j35656818491725_2_alg».proof.Proof.K.Data
import proofs.«144895_j35656818491725_2_alg».proof.Proof.KI.Value
import proofs.«144895_j35656818491725_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Pool.frame m ρ
theorem frame_ki : Cert.frame_KernelIdeal := fun m ρ _ => Cert.KernelIdeal.Pool.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the pooled value of argument arrays that agree. -/
theorem algebraic : Cert.algebraic_KernelIdeal_ReferenceIdeal := by
  intro m ρ m' ρ' _ hagree
  refine ⟨fun c => PoolSpec.pooled (Cert.KernelIdeal.PoolValue.arg m c), Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, hagree c]
  exact Cert.ReferenceIdeal.PoolRef.ref_eq_pooled _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
